-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg4 : FVec F S128x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S128x64 .f32) (main_arg4 : FVec F S128x64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S10000x64 : Shape := ⟨2, ![10000, 64]⟩
abbrev S_ : Shape := ⟨0, ![]⟩
abbrev S200x10000 : Shape := ⟨2, ![200, 10000]⟩
abbrev S200x128 : Shape := ⟨2, ![200, 128]⟩
abbrev S200x64 : Shape := ⟨2, ![200, 64]⟩

abbrev nBuf : Space → Nat
  | .hbm => 21
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x64, .f32⟩
  | .hbm, ⟨4, _⟩ => ⟨S128x64, .f32⟩
  | .hbm, ⟨5, _⟩ => ⟨S10000x128, .f32⟩
  | .hbm, ⟨6, _⟩ => ⟨S10000x128, .f32⟩
  | .hbm, ⟨7, _⟩ => ⟨S128x128, .f32⟩
  | .hbm, ⟨8, _⟩ => ⟨S10000x128, .f32⟩
  | .hbm, ⟨9, _⟩ => ⟨S10000x64, .f32⟩
  | .hbm, ⟨10, _⟩ => ⟨S10000x64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S10000x64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S10000x128, .f32⟩
  | .local _ .vmem, ⟨4, _⟩ => ⟨S200x10000, .f32⟩
  | .local _ .vmem, ⟨5, _⟩ => ⟨S200x10000, .f32⟩
  | .local _ .vmem, ⟨6, _⟩ => ⟨S200x128, .f32⟩
  | .local _ .vmem, ⟨7, _⟩ => ⟨S200x128, .f32⟩
  | .local _ .vmem, ⟨8, _⟩ => ⟨S10000x128, .f32⟩
  | .local _ .vmem, ⟨9, _⟩ => ⟨S128x128, .f32⟩
  | .local _ .vmem, ⟨10, _⟩ => ⟨S10000x128, .f32⟩
  | .local _ .vmem, ⟨11, _⟩ => ⟨S10000x128, .f32⟩
  | .local _ .vmem, ⟨12, _⟩ => ⟨S200x10000, .f32⟩
  | .local _ .vmem, ⟨13, _⟩ => ⟨S200x10000, .f32⟩
  | .local _ .vmem, ⟨14, _⟩ => ⟨S200x64, .f32⟩
  | .local _ .vmem, ⟨15, _⟩ => ⟨S200x64, .f32⟩
  | .local _ .vmem, ⟨16, _⟩ => ⟨S200x64, .f32⟩
  | .local _ .vmem, ⟨17, _⟩ => ⟨S200x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4_0 : Ref sig .tc := ⟨.hbm, 9, rfl⟩
abbrev main_call0_v4_1 : Ref sig .tc := ⟨.hbm, 10, rfl⟩
abbrev main_call0_cst : Ref sig .tc := ⟨.hbm, 11, rfl⟩
abbrev main_call0_v5 : Ref sig .tc := ⟨.hbm, 12, rfl⟩
abbrev main_call0_cst_0 : Ref sig .tc := ⟨.hbm, 13, rfl⟩
abbrev main_v0_0 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_cst_2 : Ref sig .tc := ⟨.hbm, 18, rfl⟩
abbrev main_call0_v9 : Ref sig .tc := ⟨.hbm, 19, rfl⟩
abbrev main_v0_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc3_stg0_0 : Ref sig .tc := ⟨.vmem, 11, rfl⟩
abbrev cc3_stg1_0 : Ref sig .tc := ⟨.vmem, 12, rfl⟩
abbrev cc3_stg1_1 : Ref sig .tc := ⟨.vmem, 13, rfl⟩
abbrev cc3_stg2_0 : Ref sig .tc := ⟨.vmem, 14, rfl⟩
abbrev cc3_stg2_1 : Ref sig .tc := ⟨.vmem, 15, rfl⟩
abbrev cc3_stg3_0 : Ref sig .tc := ⟨.vmem, 16, rfl⟩
abbrev cc3_stg3_1 : Ref sig .tc := ⟨.vmem, 17, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem2_0 : DmaSem sig := 10
abbrev cc3_sem0_0 : DmaSem sig := 11
abbrev cc3_sem1_0 : DmaSem sig := 12
abbrev cc3_sem1_1 : DmaSem sig := 13
abbrev cc3_sem2_0 : DmaSem sig := 14
abbrev cc3_sem2_1 : DmaSem sig := 15
abbrev cc3_sem3_0 : DmaSem sig := 16
abbrev cc3_sem3_1 : DmaSem sig := 17

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := .none

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S10000x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S10000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S200x10000 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S200x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S200x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  concatenates_S128x64_S128x64_S128x128_d1 : Shape.Concatenates [S128x64, S128x64] S128x128 1
  reducesTo_S10000x64_S_d0_1 : S10000x64.ReducesTo [0, 1] S_
  h_S_ : 0 < S_.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S200x10000_S200x10000_0_0 : ∀ a, (![0, 0] : Fin 2 → Nat) a + S200x10000.size a ≤ S200x10000.size a
  h_S200x10000 : 0 < S200x10000.numel
  shapeCasts_S10000x128_S10000x128 : S10000x128.ShapeCasts S10000x128
  inb_S200x128_S200x128_0_0 : ∀ a, (![0, 0] : Fin 2 → Nat) a + S200x128.size a ≤ S200x128.size a
  h_S200x128 : 0 < S200x128.numel
  shapeCasts_S128x128_S128x128 : S128x128.ShapeCasts S128x128
  slices_S200x128_o0_0_S200x64 : S200x128.Slices ![0, 0] S200x64
  inb_S200x64_S200x64_0_0 : ∀ a, (![0, 0] : Fin 2 → Nat) a + S200x64.size a ≤ S200x64.size a
  h_S200x64 : 0 < S200x64.numel
  slices_S200x128_o0_64_S200x64 : S200x128.Slices ![0, 64] S200x64
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .f32 = 32 ∨ (Rect.block (s := S10000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x128.size a ≤ S10000x128.size a
  hwx1_2 : ∀ i : grid1.Coords, EltTy.bits .f32 = 32 ∨ (Rect.block (s := S10000x128) S200x128.size (cc1_transform_2 i) (hinb1_2 i)).WholeWords (EltTy.packing .f32)
  hstage2_0 : ∀ j, (stage2_0 j).IsWhole
  hstage2_1 : ∀ j, (stage2_1 j).IsWhole
  hstage2_2 : ∀ j, (stage2_2 j).IsWhole
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S10000x128.size a
  hwx3_0 : ∀ i : grid3.Coords, EltTy.bits .f32 = 32 ∨ (Rect.block (s := S10000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S200x10000.size a ≤ S10000x10000.size a
  hwx3_1 : ∀ i : grid3.Coords, EltTy.bits .f32 = 32 ∨ (Rect.block (s := S10000x10000) S200x10000.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S200x64.size a ≤ S10000x64.size a
  hwx3_2 : ∀ i : grid3.Coords, EltTy.bits .f32 = 32 ∨ (Rect.block (s := S10000x64) S200x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S200x64.size a ≤ S10000x64.size a
  hwx3_3 : ∀ i : grid3.Coords, EltTy.bits .f32 = 32 ∨ (Rect.block (s := S10000x64) S200x64.size (cc3_transform_3 i) (hinb3_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_call0_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v0) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S200x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.whole (Memref.whole main_call0_v1) false false (stage2_0 0) (sem2_0 0) (Memref.isWhole_whole _) (hstage2_0 0)

abbrev win2_1 : Pipeline.Window sig grid2 :=
  Pipeline.Window.whole (Memref.whole main_call0_v2) false false (stage2_1 0) (sem2_1 0) (Memref.isWhole_whole _) (hstage2_1 0)

abbrev win2_2 : Pipeline.Window sig grid2 :=
  Pipeline.Window.whole (Memref.whole main_call0_v3) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_call0_v3) S10000x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S200x10000.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v4_0) S200x64.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v4_1) S200x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S_ : Shape := ⟨0, ![]⟩
abbrev S10000x64 : Shape := ⟨2, ![10000, 64]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x64, .f32⟩
  | .hbm, ⟨4, _⟩ => ⟨S128x64, .f32⟩
  | .hbm, ⟨5, _⟩ => ⟨S10000x128, .f32⟩
  | .hbm, ⟨6, _⟩ => ⟨S10000x128, .f32⟩
  | .hbm, ⟨7, _⟩ => ⟨S_, .f32⟩
  | .hbm, ⟨8, _⟩ => ⟨S10000x128, .f32⟩
  | .hbm, ⟨9, _⟩ => ⟨S10000x128, .f32⟩
  | .hbm, ⟨10, _⟩ => ⟨S10000x64, .f32⟩
  | .hbm, ⟨11, _⟩ => ⟨S10000x64, .f32⟩
  | .hbm, ⟨12, _⟩ => ⟨S10000x64, .f32⟩
  | .hbm, ⟨13, _⟩ => ⟨S10000x64, .f32⟩
  | .hbm, ⟨14, _⟩ => ⟨S10000x64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  reducesTo_S10000x64_S_d0_1 : S10000x64.ReducesTo [0, 1] S_
  h_S_ : 0 < S_.numel
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KernelRun.lean ====
/-
  The kernel program's run with its two results named. The program is four kernel launches with one host line between the
  second and third (the two 64-column weight matrices set side by side) and ten host lines after the fourth (the two
  means, the exponential and the logarithm). Every weakly fair execution ends, without a fault, with every buffer that
  outlives the launches at the contents obtained by folding the launches' write-backs and the host lines over the launch
  memory, in program order; in particular the two scalar results hold that fold's values, and the five arguments are
  as launched.
-/
import proofs.«115785_g16561393893850_cont_week2b_459_17_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the two results end at the last
    boundary's contents and the arguments as launched. -/
theorem run_results : θ_run defs (onTc (τ := τ) (main (F := F))) ⟨m, fun _ => 0, ρ⟩ (fun r => ∀ c : Dev nD,
      r.2.mem ((c.tc : Thread nD τ).loc main_v0_0) = W6 m ρ c (Proc.devRef .tc main_v0_0)
      ∧ r.2.mem ((c.tc : Thread nD τ).loc main_v0_1) = W6 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0_0 (by decide)),
       h c _ (mem_uc main_v0_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Run

end
-- ==== Proof.LibMatmulIdx.lean ====
/-
  A matrix product accumulated into zero, read entry by entry over the extended reals, for any extents: rows by columns
  (`[m, k] · [k, n]`, the entry at `(a, b)` is `∑ c, A (a, c) · B (c, b)`), and rows by rows (`[m, k]` against `[n, k]`, both
  contracted on their second coordinate: `∑ c, A (a, c) · B (b, c)`). The dimension numbers are written out literally, so
  a program's own record of them unifies with the statement by unfolding.
-/
import Idealize.ShloMosaic.Lib.ValueIdx
import Idealize.ShloMosaic.PureOps.Ideal.Laws

open scoped BigOperators

noncomputable section

namespace Cert.LibMatmulIdx

open Idealize.ShloMosaic Idealize.ShloMosaic.ValueIdx

/-! ## A matrix product into the zero splat, read at a row and a column -/

/-- Rows by columns: the entry at `(a, b)` of an `m × k` by `k × n` product accumulated into zero is the sum
    over the contracted coordinate of the products of the two entries. -/
theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- Rows by rows: both operands contracted on their second coordinate. The entry at `(a, b)` of an `m × k` by
    `n × k` product accumulated into zero is the sum over the contracted coordinate of row `a` of the left times
    row `b` of the right. -/
theorem matmul_rr_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.LibMatmulIdx

end
-- ==== Proof.LibDotGeneralIdx.lean ====
/-
  The host's matrix product read entry by entry over the extended reals, for any extents: rows by columns
  (`[m, k] · [k, n]`, the entry at `(a, b)` is `∑ c, A (a, c) · B (c, b)`). The dimension numbers are written out
  literally, so a program's own record of them unifies with the statement by unfolding.
-/
import Idealize.ShloMosaic.Lib.ValueIdx
import Idealize.ShloMosaic.PureOps.Ideal.Laws

open scoped BigOperators

noncomputable section

namespace Cert.LibDotGeneralIdx

open Idealize.ShloMosaic Idealize.ShloMosaic.ValueIdx

/-- Rows by columns on the host: the entry at `(a, b)` of an `m × k` by `k × n` product is the sum over the
    contracted coordinate of the products of the two entries. -/
theorem dotGeneral_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (⟨[1], [0], [0], [1], [], [], w⟩ : DotDims ⟨2, ![m, k]⟩ ⟨2, ![k, n]⟩ ⟨2, ![m, n]⟩) prec A B
        (ix2 a b)
      = ∑ c : Fin k, A (ix2 a c) * B (ix2 c b) := by
  simp only [Host.dotGeneral]
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

end Cert.LibDotGeneralIdx

end
-- ==== Proof.LibConcatCols.lean ====
/-
  Two matrices with the same number of rows set side by side, read at one entry, for any extents and any entries.

  Joining an [n, k₁] matrix and an [n, k₂] matrix along their columns gives an [n, k] matrix (k = k₁ + k₂) whose row p
  is row p of the first followed by row p of the second: column q < k₁ reads the first matrix at (p, q), and column
  q = k₁ + c reads the second at (p, c).
-/
import Idealize.ShloMosaic.Lib.Pipeline.Value
import Idealize.ShloMosaic.Lib.ValueIdx

namespace Cert.LibConcatCols

open Idealize.ShloMosaic Idealize.ShloMosaic.ValueIdx

variable {α : Type}

/-- A column inside the first piece reads the first piece at the same row and column. -/
theorem concat_cols_left {n k₁ k₂ k : ℕ} (x : (⟨2, ![n, k₁]⟩ : Shape).Idx → α) (y : (⟨2, ![n, k₂]⟩ : Shape).Idx → α)
    (h : Shape.Concatenates [(⟨2, ![n, k₁]⟩ : Shape), (⟨2, ![n, k₂]⟩ : Shape)] ⟨2, ![n, k]⟩ 1)
    (p : Fin n) (q : Fin k) (c : Fin k₁) (hq : q.val = c.val) :
    concatenate ⟨2, ![n, k]⟩ 1 [⟨⟨2, ![n, k₁]⟩, x⟩, ⟨⟨2, ![n, k₂]⟩, y⟩] h (ix2 p q) = x (ix2 p c) :=
  concatenate_pair_apply_left 1 x y h (ix2 p q) rfl (ix2 p c) (fun d => by
    match d with
    | ⟨0, _⟩ => rfl
    | ⟨1, _⟩ => exact hq.symm)

/-- A column past the first piece reads the second piece at the same row, the first piece's width less. -/
theorem concat_cols_right {n k₁ k₂ k : ℕ} (x : (⟨2, ![n, k₁]⟩ : Shape).Idx → α) (y : (⟨2, ![n, k₂]⟩ : Shape).Idx → α)
    (h : Shape.Concatenates [(⟨2, ![n, k₁]⟩ : Shape), (⟨2, ![n, k₂]⟩ : Shape)] ⟨2, ![n, k]⟩ 1)
    (p : Fin n) (q : Fin k) (c : Fin k₂) (hq : q.val = k₁ + c.val) :
    concatenate ⟨2, ![n, k]⟩ 1 [⟨⟨2, ![n, k₁]⟩, x⟩, ⟨⟨2, ![n, k₂]⟩, y⟩] h (ix2 p q) = y (ix2 p c) :=
  concatenate_pair_apply_right 1 x y h (ix2 p q) rfl rfl (ix2 p c) (fun d hd => by
    match d with
    | ⟨0, _⟩ => rfl
    | ⟨1, _⟩ => exact absurd rfl hd) (by
    show c.val + k₁ = q.val
    omega)

end Cert.LibConcatCols
-- ==== Proof.LibMatProd.lean ====
/-
  The product of two matrices of extended reals as ONE function of the two arrays, `mm A B (a, b) = ∑ c, A (a, c) · B (c, b)`,
  for any extents, and the ways a program spells it:

  * a matrix product accumulated into zero, and the host's matrix product, are both `mm` of their operands;
  * a product whose left operand is a band of rows of a taller matrix is, row by row, the product with the taller matrix
    (an entry of a product depends on the left operand only through its own row);
  * against two matrices set side by side, the product's columns are those of the product with the left piece followed
    by those of the product with the right piece (an entry depends on the right operand only through its own column);
  * multiplying on the left does not mix columns: a column of `A · X` is `A` applied to the same column of `X`.

  Only commutativity-free rearrangements are used: no distributivity, so nothing here needs the entries to be finite.
-/
import Idealize.ShloMosaic.Lib.ValueIdx
import Idealize.ShloMosaic.Lib.Pipeline.Value
import Idealize.ShloMosaic.PureOps.Ideal.Laws
import proofs.«115785_g16561393893850_cont_week2b_459_17_alg».proof.Proof.LibMatmulIdx
import proofs.«115785_g16561393893850_cont_week2b_459_17_alg».proof.Proof.LibDotGeneralIdx
import proofs.«115785_g16561393893850_cont_week2b_459_17_alg».proof.Proof.LibConcatCols

open scoped BigOperators

noncomputable section

namespace Cert.LibMatProd

open Idealize.ShloMosaic Idealize.ShloMosaic.ValueIdx

/-- Rows by columns: the entry at `(a, b)` is the sum over `c` of `A (a, c) · B (c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (show Fin m from i 0) c) * B (ix2 c (show Fin n from i 1))

theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product accumulated into the zero array is `mm` of its operands. -/
theorem matmul_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact Cert.LibMatmulIdx.matmul_rc_apply w prec A B a b

/-- The host's product is `mm` of its operands. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (F := Ideal) (⟨[1], [0], [0], [1], [], [], w⟩ : DotDims ⟨2, ![m, k]⟩ ⟨2, ![k, n]⟩ ⟨2, ![m, n]⟩) prec A B
      = mm A B := by
  funext i
  obtain ⟨a, b, rfl⟩ : ∃ (a : Fin m) (b : Fin n), i = ix2 a b := ⟨i 0, i 1, eq_ix2 i⟩
  exact Cert.LibDotGeneralIdx.dotGeneral_rc_apply w prec A B a b

/-- A band of rows: if row `a` of `Ab` is row `p` of `A`, then row `a` of `Ab · B` (accumulated into zero) is row `p`
    of `A · B`. -/
theorem matmul_band_apply {r m k n : ℕ}
    (w : DotDims.WF ⟨2, ![r, k]⟩ ⟨2, ![k, n]⟩ ⟨2, ![r, n]⟩ [1] [0] [0] [1] [] [])
    (prec : Option ContractPrecision) (Ab : FVec Ideal ⟨2, ![r, k]⟩ .f32) (A : (⟨2, ![m, k]⟩ : Shape).Idx → EReal)
    (B : FVec Ideal ⟨2, ![k, n]⟩ .f32) (a : Fin r) (p : Fin m) (b : Fin n)
    (hrow : ∀ c : Fin k, Ab (ix2 a c) = A (ix2 p c)) :
    FloatOps.matmul (⟨[1], [0], [0], [1], [], [], w⟩ : DotDims ⟨2, ![r, k]⟩ ⟨2, ![k, n]⟩ ⟨2, ![r, n]⟩) prec Ab B
        (constant (F := Ideal) ⟨2, ![r, n]⟩ .f32 0x00000000#32) (ix2 a b) = mm A B (ix2 p b) := by
  rw [Cert.LibMatmulIdx.matmul_rc_apply w prec Ab B a b, mm_apply]
  exact Finset.sum_congr rfl fun c _ => by rw [hrow c]

/-- A column of a product only reads that column of the right operand: if column `b'` of `B'` is column `b` of `B`,
    then column `b'` of `A · B'` is column `b` of `A · B`. -/
theorem mm_col_congr {m k n n' : ℕ} (A : (⟨2, ![m, k]⟩ : Shape).Idx → EReal)
    (B : (⟨2, ![k, n]⟩ : Shape).Idx → EReal) (B' : (⟨2, ![k, n']⟩ : Shape).Idx → EReal) (a : Fin m) (b : Fin n) (b' : Fin n')
    (hcol : ∀ c : Fin k, B' (ix2 c b') = B (ix2 c b)) :
    mm A B' (ix2 a b') = mm A B (ix2 a b) := by
  rw [mm_apply, mm_apply]
  exact Finset.sum_congr rfl fun c _ => by rw [hcol c]

/-- Against two matrices side by side, a column inside the left piece is that column of the product with the left piece. -/
theorem mm_concat_left {m k n₁ n₂ n : ℕ} (A : (⟨2, ![m, k]⟩ : Shape).Idx → EReal)
    (X : (⟨2, ![k, n₁]⟩ : Shape).Idx → EReal) (Y : (⟨2, ![k, n₂]⟩ : Shape).Idx → EReal)
    (h : Shape.Concatenates [(⟨2, ![k, n₁]⟩ : Shape), (⟨2, ![k, n₂]⟩ : Shape)] ⟨2, ![k, n]⟩ 1)
    (a : Fin m) (q : Fin n) (b : Fin n₁) (hq : q.val = b.val) :
    mm A (concatenate ⟨2, ![k, n]⟩ 1 [⟨⟨2, ![k, n₁]⟩, X⟩, ⟨⟨2, ![k, n₂]⟩, Y⟩] h) (ix2 a q) = mm A X (ix2 a b) :=
  mm_col_congr A X _ a b q fun c => Cert.LibConcatCols.concat_cols_left X Y h c q b hq

/-- Against two matrices side by side, a column past the left piece is a column of the product with the right piece. -/
theorem mm_concat_right {m k n₁ n₂ n : ℕ} (A : (⟨2, ![m, k]⟩ : Shape).Idx → EReal)
    (X : (⟨2, ![k, n₁]⟩ : Shape).Idx → EReal) (Y : (⟨2, ![k, n₂]⟩ : Shape).Idx → EReal)
    (h : Shape.Concatenates [(⟨2, ![k, n₁]⟩ : Shape), (⟨2, ![k, n₂]⟩ : Shape)] ⟨2, ![k, n]⟩ 1)
    (a : Fin m) (q : Fin n) (b : Fin n₂) (hq : q.val = n₁ + b.val) :
    mm A (concatenate ⟨2, ![k, n]⟩ 1 [⟨⟨2, ![k, n₁]⟩, X⟩, ⟨⟨2, ![k, n₂]⟩, Y⟩] h) (ix2 a q) = mm A Y (ix2 a b) :=
  mm_col_congr A Y _ a b q fun c => Cert.LibConcatCols.concat_cols_right X Y h c q b hq

/-- Multiplying on the left does not mix columns: column `b'` of `A · (X · B')` is column `b` of `A · (X · B)` when column
    `b'` of `B'` is column `b` of `B`. -/
theorem mm_mm_col_congr {m k l n n' : ℕ} (A : (⟨2, ![m, k]⟩ : Shape).Idx → EReal) (X : (⟨2, ![k, l]⟩ : Shape).Idx → EReal)
    (B : (⟨2, ![l, n]⟩ : Shape).Idx → EReal) (B' : (⟨2, ![l, n']⟩ : Shape).Idx → EReal) (a : Fin m) (b : Fin n) (b' : Fin n')
    (hcol : ∀ c : Fin l, B' (ix2 c b') = B (ix2 c b)) :
    mm A (mm X B') (ix2 a b') = mm A (mm X B) (ix2 a b) :=
  mm_col_congr A (mm X B) (mm X B') a b b' fun c => mm_col_congr X B B' c b b' hcol

end Cert.LibMatProd

end
-- ==== Proof.LibSliceCols.lean ====
/-
  A run of columns cut out of a matrix, read at one entry: the unit-stride slice of an [a, b] array that keeps every row
  and the b' columns from off on holds, at (p, j), the operand's entry (p, off + j) — for any extents and any entries.
  The caller names the operand's column and owes the one linear equation.
-/
import Idealize.ShloMosaic.Lib.Pipeline.Value
import Idealize.ShloMosaic.Lib.ValueIdx

namespace Cert.LibSliceCols

open Idealize.ShloMosaic Idealize.ShloMosaic.ValueIdx

/-- The slice of an [a, b] array at offsets (0, off) with b' columns reads, at (p, j), the operand at (p, k) where
    k = off + j. -/
theorem sliceCols_apply {α : Type} {a b b' : ℕ} (off : ℕ) (x : (⟨2, ![a, b]⟩ : Shape).Idx → α)
    (h : (⟨2, ![a, b]⟩ : Shape).Slices ![0, off] ⟨2, ![a, b']⟩) (p : Fin a) (j : Fin b') (k : Fin b)
    (hk : k.val = off + j.val) :
    extractStridedSlice ⟨2, ![a, b']⟩ ![0, off] x h (ix2 p j) = x (ix2 p k) :=
  extractStridedSlice_apply ![0, off] x h (ix2 p j) (ix2 p k) fun ax => by
    match ax with
    | ⟨0, _⟩ => show p.val = 0 + p.val; omega
    | ⟨1, _⟩ => exact hk

end Cert.LibSliceCols
-- ==== Proof.Payloads.lean ====
/-
  What each of the four launches stores, as a value of the blocks it loads, over the extended reals.

  * The first and third launches store a whole product: `x · W` accumulated into zero, the operands whole arrays.
  * The second stores `max (Ab · S, 0)` where `Ab` is a band of 200 rows of the adjacency matrix: entry `(a, b)` of the band's
    result is `max ((A · S) (p, b), 0)` for the row `p` of `A` that the band's row `a` is.
  * The fourth computes `Ab · B` for a 128-column `B` and stores its columns 0–63 and its columns 64–127 separately: entry
    `(a, b)` of either is `(A · B) (p, q)` with `q = b`, respectively `q = 64 + b`.
-/
import proofs.«115785_g16561393893850_cont_week2b_459_17_alg».proof.Proof.Gen.KernelIdeal.Skeleton
import proofs.«115785_g16561393893850_cont_week2b_459_17_alg».proof.Proof.LibMatProd
import proofs.«115785_g16561393893850_cont_week2b_459_17_alg».proof.Proof.LibSliceCols

noncomputable section

namespace Cert.KernelIdeal.Pay

open Cert.KernelIdeal Cert.KernelIdeal.Gen Idealize.ShloMosaic Idealize.ShloMosaic.ValueIdx Cert.LibMatProd

/-- The first launch stores the product of its two blocks. -/
theorem pay0_eq (v0 : FVec Ideal S10000x128 .f32) (v1 : FVec Ideal S128x128 .f32) :
    k0_pay1 (F := Ideal) v0 v1 = mm v0 v1 := by
  unfold k0_pay1
  exact matmul_eq_mm _ none v0 v1

/-- The third launch stores the product of its two blocks. -/
theorem pay2_eq (v0 : FVec Ideal S10000x128 .f32) (v2 : FVec Ideal S128x128 .f32) :
    k2_pay1 (F := Ideal) v0 v2 = mm v0 v2 := by
  unfold k2_pay1
  simp only [shapeCast_self]
  exact matmul_eq_mm _ none v0 v2

/-- The second launch: a band of rows of `A` times `S`, clamped below at zero, entry by entry. -/
theorem pay1_apply (v0 : FVec Ideal S200x10000 .f32) (v1 : FVec Ideal S10000x128 .f32)
    (A : FVec Ideal S10000x10000 .f32) (j : S200x128.Idx) (i : S10000x128.Idx) (hcol : (i 1).val = (j 1).val)
    (hrow : ∀ c : Fin 10000, v0 (ix2 (show Fin 200 from j 0) c) = A (ix2 (show Fin 10000 from i 0) c)) :
    k1_pay1 (F := Ideal) v0 v1 j = max (mm A v1 i) (Ideal.ofBits .f32 0x00000000#32) := by
  obtain ⟨a, b, rfl⟩ : ∃ (a : Fin 200) (b : Fin 128), j = ix2 a b := ⟨j 0, j 1, eq_ix2 j⟩
  obtain ⟨p, q, rfl⟩ : ∃ (p : Fin 10000) (q : Fin 128), i = ix2 p q := ⟨i 0, i 1, eq_ix2 i⟩
  obtain rfl : q = b := Fin.ext hcol
  unfold k1_pay1
  simp only [shapeCast_self]
  rw [maximumf_apply]
  exact congrArg₂ max (matmul_band_apply _ none v0 A v1 a p q hrow) rfl

/-- The fourth launch, left half: columns 0–63 of a band of rows of `A` times `B`. -/
theorem pay3_left_apply (v0 : FVec Ideal S200x10000 .f32) (v1 : FVec Ideal S10000x128 .f32)
    (A : FVec Ideal S10000x10000 .f32) (j : S200x64.Idx) (p : Fin 10000) (q : Fin 128) (hq : q.val = 0 + (j 1).val)
    (hrow : ∀ c : Fin 10000, v0 (ix2 (show Fin 200 from j 0) c) = A (ix2 p c)) :
    k3_pay2 (F := Ideal) v0 v1 j = mm A v1 (ix2 p q) := by
  obtain ⟨a, b, rfl⟩ : ∃ (a : Fin 200) (b : Fin 64), j = ix2 a b := ⟨j 0, j 1, eq_ix2 j⟩
  unfold k3_pay2 k3_pay1
  simp only [shapeCast_self]
  refine (Cert.LibSliceCols.sliceCols_apply 0 _ _ a b q hq).trans ?_
  exact matmul_band_apply _ none v0 A v1 a p q hrow

/-- The fourth launch, right half: columns 64–127 of a band of rows of `A` times `B`. -/
theorem pay3_right_apply (v0 : FVec Ideal S200x10000 .f32) (v1 : FVec Ideal S10000x128 .f32)
    (A : FVec Ideal S10000x10000 .f32) (j : S200x64.Idx) (p : Fin 10000) (q : Fin 128) (hq : q.val = 64 + (j 1).val)
    (hrow : ∀ c : Fin 10000, v0 (ix2 (show Fin 200 from j 0) c) = A (ix2 p c)) :
    k3_pay3 (F := Ideal) v0 v1 j = mm A v1 (ix2 p q) := by
  obtain ⟨a, b, rfl⟩ : ∃ (a : Fin 200) (b : Fin 64), j = ix2 a b := ⟨j 0, j 1, eq_ix2 j⟩
  unfold k3_pay3 k3_pay1
  simp only [shapeCast_self]
  refine (Cert.LibSliceCols.sliceCols_apply 64 _ _ a b q hq).trans ?_
  exact matmul_band_apply _ none v0 A v1 a p q hrow

end Cert.KernelIdeal.Pay

end
-- ==== Proof.Region0.lean ====
/-
  The first launch: the support matrix. No grid: its one point reads the whole feature matrix x (10000 × 128) and the whole
  first weight matrix W (128 × 128) and writes the whole product x · W, accumulated into zero. After the launch the result
  array is `mm x W` of the two arrays as the launch found them.
-/
import proofs.«115785_g16561393893850_cont_week2b_459_17_alg».proof.Proof.Gen.KernelIdeal.Frame
import proofs.«115785_g16561393893850_cont_week2b_459_17_alg».proof.Proof.Payloads
import Idealize.ShloMosaic.Lib.Pipeline.Value

set_option maxRecDepth 16384

noncomputable section

namespace Cert.KernelIdeal.Support

open Cert.KernelIdeal Cert.KernelIdeal.Gen Idealize.ShloMosaic Idealize.ShloMosaic.TcCoe Idealize.SL.Sem
open Idealize.ShloMosaic.ValueIdx Cert.LibMatProd
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- With no grid there is one point, and every window's block is block (0, 0): its whole array. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first window's block is the whole left operand. -/
theorem left_whole (c : Dev nD) (t : Fin cfg0.N) :
    (iblk0 V c 0 t : S10000x128.Idx → EReal) = V c main_arg0 := by
  obtain ⟨e0, e1, -⟩ := idx_facts t
  funext y
  unfold iblk0
  rw [View.read_apply]
  show V c main_arg0 _ = V c main_arg0 y
  congr 1
  funext a
  apply Fin.ext
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- The second window's block is the whole right operand. -/
theorem right_whole (c : Dev nD) (t : Fin cfg0.N) :
    (iblk0 V c 1 t : S128x128.Idx → EReal) = V c main_arg2 := by
  obtain ⟨-, -, e2, e3, -⟩ := idx_facts t
  funext y
  unfold iblk0
  rw [View.read_apply]
  show V c main_arg2 _ = V c main_arg2 y
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- What the one point writes back is the whole product. -/
theorem flushed_eq (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨-, -, -, -, e4, e5⟩ := idx_facts t
  funext j
  show k0_pay1 (iblk0 V c 0 t) (iblk0 V c 1 t) j = mm (V c main_arg0) (V c main_arg2) (((cfg0.win 2).blk t).view.emb j)
  rw [left_whole V c t, right_whole V c t, Cert.KernelIdeal.Pay.pay0_eq]
  congr 1
  funext a
  apply Fin.ext
  match a with
  | ⟨0, _⟩ => show (j 0).val = win0_2.index t (0 : Fin 2) * 10000 + 1 * (j 0).val; rw [e4]; omega
  | ⟨1, _⟩ => show (j 1).val = win0_2.index t (1 : Fin 2) * 128 + 1 * (j 1).val; rw [e5]; omega

/-- An index is in the one block iff each coordinate is in the block's range on its axis. -/
theorem mem_blk (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_call0_v0).slice (win0_2.rect t)).set ↔ _
  rw [View.set_slice_whole, Rect.mem_set_unit]
  exact Iff.rfl

/-- The one block is the whole array. -/
theorem cover (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  obtain ⟨-, -, -, -, e4, e5⟩ := idx_facts t0_0
  refine ⟨t0_0, flush0_2 _, ?_⟩
  rw [mem_blk]
  intro a
  match a with
  | ⟨0, _⟩ =>
    show win0_2.index t0_0 (0 : Fin 2) * 10000 ≤ (i 0).val ∧ (i 0).val < win0_2.index t0_0 (0 : Fin 2) * 10000 + 10000
    rw [e4]; omega
  | ⟨1, _⟩ =>
    show win0_2.index t0_0 (1 : Fin 2) * 128 ≤ (i 1).val ∧ (i 1).val < win0_2.index t0_0 (1 : Fin 2) * 128 + 128
    rw [e5]; omega

/-- After the launch the result array is the product of the two operand arrays as the launch found them. -/
theorem final (c : Dev nD) :
    (dat0 V c).arrAt 2 cfg0.N = mm (V c main_arg0) (V c main_arg2) :=
  (dat0 V c).arrAt_eq_of_cover 2 (mm (V c main_arg0) (V c main_arg2)) (fun t _ => flushed_eq V c t) cover

end Cert.KernelIdeal.Support

end
-- ==== Proof.Region1.lean ====
/-
  The second launch: the hidden layer. Its grid has 50 points; point t reads the whole support matrix S (10000 × 128) and
  rows 200·t … 200·t + 199 of the adjacency matrix A, and writes rows 200·t … 200·t + 199 of the result, each entry
  max ((A · S) (p, q), 0). The 50 row bands tile the result, so after the launch the result array is the one function
  `hid A S` of the two arrays as the launch found them.
-/
import proofs.«115785_g16561393893850_cont_week2b_459_17_alg».proof.Proof.Gen.KernelIdeal.Frame
import proofs.«115785_g16561393893850_cont_week2b_459_17_alg».proof.Proof.Payloads
import Idealize.ShloMosaic.Lib.Pipeline.Value

set_option maxRecDepth 16384

noncomputable section

namespace Cert.KernelIdeal.Hidden

open Cert.KernelIdeal Cert.KernelIdeal.Gen Idealize.ShloMosaic Idealize.ShloMosaic.TcCoe Idealize.SL.Sem
open Idealize.ShloMosaic.ValueIdx Cert.LibMatProd
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The hidden layer: `max (A · S, 0)`, entry by entry. -/
def hid (A : FVec Ideal S10000x10000 .f32) (S : FVec Ideal S10000x128 .f32) : FVec Ideal S10000x128 .f32 :=
  fun i => max (mm A S i) (Ideal.ofBits .f32 0x00000000#32)

/-- The index maps over the grid: the support matrix is always block (0, 0); the adjacency band and the result band are
    both block (t, 0). -/
theorem idx_facts : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The first window's block is the whole support matrix, at every point. -/
theorem support_whole (c : Dev nD) (t : Fin cfg1.N) :
    (iblk1 V c 0 t : S10000x128.Idx → EReal) = V c main_call0_v0 := by
  obtain ⟨e0, e1, -⟩ := idx_facts t
  funext y
  unfold iblk1
  rw [View.read_apply]
  show V c main_call0_v0 _ = V c main_call0_v0 y
  congr 1
  funext a
  apply Fin.ext
  match a with
  | ⟨0, _⟩ => show win1_0.index t (0 : Fin 2) * 10000 + 1 * (y 0).val = (y 0).val; rw [e0]; omega
  | ⟨1, _⟩ => show win1_0.index t (1 : Fin 2) * 128 + 1 * (y 1).val = (y 1).val; rw [e1]; omega

/-- Row `a` of the second window's block at point `t` is row `200·t + a` of the adjacency matrix. -/
theorem band_row (c : Dev nD) (t : Fin cfg1.N) (a : Fin 200) (k : Fin 10000) (p : Fin 10000) (hp : p.val = t.val * 200 + a.val) :
    (iblk1 V c 1 t : S200x10000.Idx → EReal) (ix2 a k) = V c main_arg1 (ix2 p k) := by
  obtain ⟨-, -, e2, e3, -⟩ := idx_facts t
  unfold iblk1
  rw [View.read_apply]
  show V c main_arg1 _ = V c main_arg1 (ix2 p k)
  congr 1
  funext d
  apply Fin.ext
  match d with
  | ⟨0, _⟩ => show win1_1.index t (0 : Fin 2) * 200 + 1 * a.val = p.val; rw [e2, hp]; omega
  | ⟨1, _⟩ => show win1_1.index t (1 : Fin 2) * 10000 + 1 * k.val = k.val; rw [e3]; omega

/-- What point `t` writes back is its band of rows of `hid A S`. -/
theorem flushed_eq (c : Dev nD) (t : Fin cfg1.N) :
    (dat1 V c).flushed 2 t = ((cfg1.win 2).blk t).view.read (Elt Ideal) (hid (V c main_arg1) (V c main_call0_v0)) := by
  show (cfg1.win 2).cut (grid1.coords t) ((dat1 V c).after 2 t) = _
  rw [after1_2]
  unfold out1_2
  rw [View.canon_unit_zero hz]
  simp only [View.ld_unit_zero (S := S200x10000) hz, View.ld_unit_zero (S := S10000x128) hz]
  obtain ⟨-, -, -, -, e4, e5⟩ := idx_facts t
  funext j
  show k1_pay1 (iblk1 V c 1 t) (iblk1 V c 0 t) j = hid (V c main_arg1) (V c main_call0_v0) (((cfg1.win 2).blk t).view.emb j)
  rw [support_whole V c t]
  refine Cert.KernelIdeal.Pay.pay1_apply _ _ (V c main_arg1) j _ ?_ ?_
  · show win1_2.index t (1 : Fin 2) * 128 + 1 * (j 1).val = (j 1).val
    rw [e5]; omega
  · intro k
    refine band_row V c t _ k _ ?_
    show win1_2.index t (0 : Fin 2) * 200 + 1 * (j 0).val = t.val * 200 + (j 0).val
    rw [e4]; omega

/-- An index is in point `t`'s band iff each coordinate is in the band's range on its axis. -/
theorem mem_blk (t : Fin cfg1.N) (i : S10000x128.Idx) :
    i ∈ ((cfg1.win 2).blk t).view.set ↔ ∀ a : Fin 2, win1_2.index t a * S200x128.size a ≤ (i a).val ∧ (i a).val < win1_2.index t a * S200x128.size a + S200x128.size a := by
  show i ∈ ((View.whole main_call0_v1).slice (win1_2.rect t)).set ↔ _
  rw [View.set_slice_whole, Rect.mem_set_unit]
  exact Iff.rfl

/-- The bands tile the array: row `r` is in the band of point `r / 200`. -/
theorem cover (i : S10000x128.Idx) : ∃ t : Fin cfg1.N, (cfg1.win 2).flush t = true ∧ i ∈ ((cfg1.win 2).blk t).view.set := by
  have hi0 : (i 0).val < 10000 := (i 0).isLt
  have hi1 : (i 1).val < 128 := (i 1).isLt
  have hN : grid1.N = 50 := N_1
  have ht : (i 0).val / 200 < cfg1.N := by show (i 0).val / 200 < grid1.N; rw [hN]; omega
  obtain ⟨-, -, -, -, e4, e5⟩ := idx_facts ⟨(i 0).val / 200, ht⟩
  refine ⟨⟨(i 0).val / 200, ht⟩, flush1_2 _, ?_⟩
  rw [mem_blk]
  intro a
  match a with
  | ⟨0, _⟩ =>
    show win1_2.index ⟨(i 0).val / 200, ht⟩ (0 : Fin 2) * 200 ≤ (i 0).val ∧ (i 0).val < win1_2.index ⟨(i 0).val / 200, ht⟩ (0 : Fin 2) * 200 + 200
    rw [e4]; show (i 0).val / 200 * 200 ≤ (i 0).val ∧ (i 0).val < (i 0).val / 200 * 200 + 200; omega
  | ⟨1, _⟩ =>
    show win1_2.index ⟨(i 0).val / 200, ht⟩ (1 : Fin 2) * 128 ≤ (i 1).val ∧ (i 1).val < win1_2.index ⟨(i 0).val / 200, ht⟩ (1 : Fin 2) * 128 + 128
    rw [e5]; omega

/-- After the launch the result array is `hid A S` of the adjacency and support arrays as the launch found them. -/
theorem final (c : Dev nD) :
    (dat1 V c).arrAt 2 cfg1.N = hid (V c main_arg1) (V c main_call0_v0) :=
  (dat1 V c).arrAt_eq_of_cover 2 (hid (V c main_arg1) (V c main_call0_v0)) (fun t _ => flushed_eq V c t) cover

end Cert.KernelIdeal.Hidden

end
-- ==== Proof.Region2.lean ====
/-
  The third launch: the hidden layer times the two second-layer weight matrices at once. No grid: its one point reads the
  whole hidden matrix H (10000 × 128) and the whole 128 × 128 matrix made of the two 128 × 64 weight matrices side by side,
  and writes the whole product, accumulated into zero. After the launch the result array is `mm H W` of the two arrays as
  the launch found them.
-/
import proofs.«115785_g16561393893850_cont_week2b_459_17_alg».proof.Proof.Gen.KernelIdeal.Frame
import proofs.«115785_g16561393893850_cont_week2b_459_17_alg».proof.Proof.Payloads
import Idealize.ShloMosaic.Lib.Pipeline.Value

set_option maxRecDepth 16384

noncomputable section

namespace Cert.KernelIdeal.Mixed

open Cert.KernelIdeal Cert.KernelIdeal.Gen Idealize.ShloMosaic Idealize.ShloMosaic.TcCoe Idealize.SL.Sem
open Idealize.ShloMosaic.ValueIdx Cert.LibMatProd
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- With no grid there is one point, and every window's block is block (0, 0): its whole array. -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The first window's block is the whole left operand. -/
theorem left_whole (c : Dev nD) (t : Fin cfg2.N) :
    (iblk2 V c 0 t : S10000x128.Idx → EReal) = V c main_call0_v1 := by
  obtain ⟨e0, e1, -⟩ := idx_facts t
  funext y
  unfold iblk2
  rw [View.read_apply]
  show V c main_call0_v1 _ = V c main_call0_v1 y
  congr 1
  funext a
  apply Fin.ext
  match a with
  | ⟨0, _⟩ => show win2_0.index t (0 : Fin 2) * 10000 + 1 * (y 0).val = (y 0).val; rw [e0]; omega
  | ⟨1, _⟩ => show win2_0.index t (1 : Fin 2) * 128 + 1 * (y 1).val = (y 1).val; rw [e1]; omega

/-- The second window's block is the whole right operand. -/
theorem right_whole (c : Dev nD) (t : Fin cfg2.N) :
    (iblk2 V c 1 t : S128x128.Idx → EReal) = V c main_call0_v2 := by
  obtain ⟨-, -, e2, e3, -⟩ := idx_facts t
  funext y
  unfold iblk2
  rw [View.read_apply]
  show V c main_call0_v2 _ = V c main_call0_v2 y
  congr 1
  funext a
  apply Fin.ext
  match a with
  | ⟨0, _⟩ => show win2_1.index t (0 : Fin 2) * 128 + 1 * (y 0).val = (y 0).val; rw [e2]; omega
  | ⟨1, _⟩ => show win2_1.index t (1 : Fin 2) * 128 + 1 * (y 1).val = (y 1).val; rw [e3]; omega

/-- What the one point writes back is the whole product. -/
theorem flushed_eq (c : Dev nD) (t : Fin cfg2.N) :
    (dat2 V c).flushed 2 t = ((cfg2.win 2).blk t).view.read (Elt Ideal) (mm (V c main_call0_v1) (V c main_call0_v2)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  obtain ⟨-, -, -, -, e4, e5⟩ := idx_facts t
  funext j
  show k2_pay1 (iblk2 V c 0 t) (iblk2 V c 1 t) j = mm (V c main_call0_v1) (V c main_call0_v2) (((cfg2.win 2).blk t).view.emb j)
  rw [left_whole V c t, right_whole V c t, Cert.KernelIdeal.Pay.pay2_eq]
  congr 1
  funext a
  apply Fin.ext
  match a with
  | ⟨0, _⟩ => show (j 0).val = win2_2.index t (0 : Fin 2) * 10000 + 1 * (j 0).val; rw [e4]; omega
  | ⟨1, _⟩ => show (j 1).val = win2_2.index t (1 : Fin 2) * 128 + 1 * (j 1).val; rw [e5]; omega

/-- An index is in the one block iff each coordinate is in the block's range on its axis. -/
theorem mem_blk (t : Fin cfg2.N) (i : S10000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_call0_v3).slice (win2_2.rect t)).set ↔ _
  rw [View.set_slice_whole, Rect.mem_set_unit]
  exact Iff.rfl

/-- The one block is the whole array. -/
theorem cover (i : S10000x128.Idx) : ∃ t : Fin cfg2.N, (cfg2.win 2).flush t = true ∧ i ∈ ((cfg2.win 2).blk t).view.set := by
  have hi0 : (i 0).val < 10000 := (i 0).isLt
  have hi1 : (i 1).val < 128 := (i 1).isLt
  obtain ⟨-, -, -, -, e4, e5⟩ := idx_facts t2_0
  refine ⟨t2_0, flush2_2 _, ?_⟩
  rw [mem_blk]
  intro a
  match a with
  | ⟨0, _⟩ =>
    show win2_2.index t2_0 (0 : Fin 2) * 10000 ≤ (i 0).val ∧ (i 0).val < win2_2.index t2_0 (0 : Fin 2) * 10000 + 10000
    rw [e4]; omega
  | ⟨1, _⟩ =>
    show win2_2.index t2_0 (1 : Fin 2) * 128 ≤ (i 1).val ∧ (i 1).val < win2_2.index t2_0 (1 : Fin 2) * 128 + 128
    rw [e5]; omega

/-- After the launch the result array is the product of the two operand arrays as the launch found them. -/
theorem final (c : Dev nD) :
    (dat2 V c).arrAt 2 cfg2.N = mm (V c main_call0_v1) (V c main_call0_v2) :=
  (dat2 V c).arrAt_eq_of_cover 2 (mm (V c main_call0_v1) (V c main_call0_v2)) (fun t _ => flushed_eq V c t) cover

end Cert.KernelIdeal.Mixed

end
-- ==== Proof.Region3.lean ====
/-
  The fourth launch: the two projections. Its grid has 50 points; point t reads the whole 128-column matrix B and rows
  200·t … 200·t + 199 of the adjacency matrix A, forms that band of A · B, and writes its columns 0–63 to the first result
  and its columns 64–127 to the second, at rows 200·t … 200·t + 199. The bands tile both results, so after the launch the
  first result is the left 64 columns of A · B and the second its right 64 columns.
-/
import proofs.«115785_g16561393893850_cont_week2b_459_17_alg».proof.Proof.Gen.KernelIdeal.Frame
import proofs.«115785_g16561393893850_cont_week2b_459_17_alg».proof.Proof.Payloads
import Idealize.ShloMosaic.Lib.Pipeline.Value

set_option maxRecDepth 16384

noncomputable section

namespace Cert.KernelIdeal.Proj

open Cert.KernelIdeal Cert.KernelIdeal.Gen Idealize.ShloMosaic Idealize.ShloMosaic.TcCoe Idealize.SL.Sem
open Idealize.ShloMosaic.ValueIdx Cert.LibMatProd
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The left 64 columns of a 128-column matrix. -/
abbrev leftCols (X : FVec Ideal S10000x128 .f32) : FVec Ideal S10000x64 .f32 :=
  fun i => X (ix2 (show Fin 10000 from i 0) ⟨(show Fin 64 from i 1).val, by have := (show Fin 64 from i 1).isLt; omega⟩)

/-- The right 64 columns of a 128-column matrix. -/
abbrev rightCols (X : FVec Ideal S10000x128 .f32) : FVec Ideal S10000x64 .f32 :=
  fun i => X (ix2 (show Fin 10000 from i 0) ⟨64 + (show Fin 64 from i 1).val, by have := (show Fin 64 from i 1).isLt; omega⟩)

/-- The index maps over the grid: B is always block (0, 0); the adjacency band and both result bands are block (t, 0). -/
theorem idx_facts : ∀ t : Fin cfg3.N, win3_0.index t (0 : Fin 2) = 0 ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The first window's block is the whole of B, at every point. -/
theorem right_whole (c : Dev nD) (t : Fin cfg3.N) :
    (iblk3 V c 0 t : S10000x128.Idx → EReal) = V c main_call0_v3 := by
  obtain ⟨e0, e1, -⟩ := idx_facts t
  funext y
  unfold iblk3
  rw [View.read_apply]
  show V c main_call0_v3 _ = V c main_call0_v3 y
  congr 1
  funext a
  apply Fin.ext
  match a with
  | ⟨0, _⟩ => show win3_0.index t (0 : Fin 2) * 10000 + 1 * (y 0).val = (y 0).val; rw [e0]; omega
  | ⟨1, _⟩ => show win3_0.index t (1 : Fin 2) * 128 + 1 * (y 1).val = (y 1).val; rw [e1]; omega

/-- Row `a` of the second window's block at point `t` is row `200·t + a` of the adjacency matrix. -/
theorem band_row (c : Dev nD) (t : Fin cfg3.N) (a : Fin 200) (k : Fin 10000) (p : Fin 10000) (hp : p.val = t.val * 200 + a.val) :
    (iblk3 V c 1 t : S200x10000.Idx → EReal) (ix2 a k) = V c main_arg1 (ix2 p k) := by
  obtain ⟨-, -, e2, e3, -⟩ := idx_facts t
  unfold iblk3
  rw [View.read_apply]
  show V c main_arg1 _ = V c main_arg1 (ix2 p k)
  congr 1
  funext d
  apply Fin.ext
  match d with
  | ⟨0, _⟩ => show win3_1.index t (0 : Fin 2) * 200 + 1 * a.val = p.val; rw [e2, hp]; omega
  | ⟨1, _⟩ => show win3_1.index t (1 : Fin 2) * 10000 + 1 * k.val = k.val; rw [e3]; omega

/-- What point `t` writes back to the first result is its band of rows of the left columns of `A · B`. -/
theorem flushed_left (c : Dev nD) (t : Fin cfg3.N) :
    (dat3 V c).flushed 2 t = ((cfg3.win 2).blk t).view.read (Elt Ideal) (leftCols (mm (V c main_arg1) (V c main_call0_v3))) := by
  show (cfg3.win 2).cut (grid3.coords t) ((dat3 V c).after 2 t) = _
  rw [after3_2]
  unfold out3_2
  rw [View.canon_unit_zero hz]
  simp only [View.ld_unit_zero (S := S200x10000) hz, View.ld_unit_zero (S := S10000x128) hz]
  obtain ⟨-, -, -, -, e4, e5, -, -⟩ := idx_facts t
  funext j
  show k3_pay2 (iblk3 V c 1 t) (iblk3 V c 0 t) j = mm (V c main_arg1) (V c main_call0_v3) (ix2 _ _)
  rw [right_whole V c t]
  refine Cert.KernelIdeal.Pay.pay3_left_apply _ _ (V c main_arg1) j _ _ ?_ ?_
  · show win3_2.index t (1 : Fin 2) * 64 + 1 * (j 1).val = 0 + (j 1).val
    rw [e5]; omega
  · intro k
    refine band_row V c t _ k _ ?_
    show win3_2.index t (0 : Fin 2) * 200 + 1 * (j 0).val = t.val * 200 + (j 0).val
    rw [e4]; omega

/-- What point `t` writes back to the second result is its band of rows of the right columns of `A · B`. -/
theorem flushed_right (c : Dev nD) (t : Fin cfg3.N) :
    (dat3 V c).flushed 3 t = ((cfg3.win 3).blk t).view.read (Elt Ideal) (rightCols (mm (V c main_arg1) (V c main_call0_v3))) := by
  show (cfg3.win 3).cut (grid3.coords t) ((dat3 V c).after 3 t) = _
  rw [after3_3]
  unfold out3_3
  rw [View.canon_unit_zero hz]
  simp only [View.ld_unit_zero (S := S200x10000) hz, View.ld_unit_zero (S := S10000x128) hz]
  obtain ⟨-, -, -, -, -, -, e6, e7⟩ := idx_facts t
  funext j
  show k3_pay3 (iblk3 V c 1 t) (iblk3 V c 0 t) j = mm (V c main_arg1) (V c main_call0_v3) (ix2 _ _)
  rw [right_whole V c t]
  refine Cert.KernelIdeal.Pay.pay3_right_apply _ _ (V c main_arg1) j _ _ ?_ ?_
  · show 64 + (win3_3.index t (1 : Fin 2) * 64 + 1 * (j 1).val) = 64 + (j 1).val
    rw [e7]; omega
  · intro k
    refine band_row V c t _ k _ ?_
    show win3_3.index t (0 : Fin 2) * 200 + 1 * (j 0).val = t.val * 200 + (j 0).val
    rw [e6]; omega

/-- An index is in point `t`'s band of the first result iff each coordinate is in the band's range on its axis. -/
theorem mem_blk_left (t : Fin cfg3.N) (i : S10000x64.Idx) :
    i ∈ ((cfg3.win 2).blk t).view.set ↔ ∀ a : Fin 2, win3_2.index t a * S200x64.size a ≤ (i a).val ∧ (i a).val < win3_2.index t a * S200x64.size a + S200x64.size a := by
  show i ∈ ((View.whole main_call0_v4_0).slice (win3_2.rect t)).set ↔ _
  rw [View.set_slice_whole, Rect.mem_set_unit]
  exact Iff.rfl

/-- The same for the second result. -/
theorem mem_blk_right (t : Fin cfg3.N) (i : S10000x64.Idx) :
    i ∈ ((cfg3.win 3).blk t).view.set ↔ ∀ a : Fin 2, win3_3.index t a * S200x64.size a ≤ (i a).val ∧ (i a).val < win3_3.index t a * S200x64.size a + S200x64.size a := by
  show i ∈ ((View.whole main_call0_v4_1).slice (win3_3.rect t)).set ↔ _
  rw [View.set_slice_whole, Rect.mem_set_unit]
  exact Iff.rfl

/-- The bands tile the first result: row `r` is in the band of point `r / 200`. -/
theorem cover_left (i : S10000x64.Idx) : ∃ t : Fin cfg3.N, (cfg3.win 2).flush t = true ∧ i ∈ ((cfg3.win 2).blk t).view.set := by
  have hi0 : (i 0).val < 10000 := (i 0).isLt
  have hi1 : (i 1).val < 64 := (i 1).isLt
  have hN : grid3.N = 50 := N_3
  have ht : (i 0).val / 200 < cfg3.N := by show (i 0).val / 200 < grid3.N; rw [hN]; omega
  obtain ⟨-, -, -, -, e4, e5, -, -⟩ := idx_facts ⟨(i 0).val / 200, ht⟩
  refine ⟨⟨(i 0).val / 200, ht⟩, flush3_2 _, ?_⟩
  rw [mem_blk_left]
  intro a
  match a with
  | ⟨0, _⟩ =>
    show win3_2.index ⟨(i 0).val / 200, ht⟩ (0 : Fin 2) * 200 ≤ (i 0).val ∧ (i 0).val < win3_2.index ⟨(i 0).val / 200, ht⟩ (0 : Fin 2) * 200 + 200
    rw [e4]; show (i 0).val / 200 * 200 ≤ (i 0).val ∧ (i 0).val < (i 0).val / 200 * 200 + 200; omega
  | ⟨1, _⟩ =>
    show win3_2.index ⟨(i 0).val / 200, ht⟩ (1 : Fin 2) * 64 ≤ (i 1).val ∧ (i 1).val < win3_2.index ⟨(i 0).val / 200, ht⟩ (1 : Fin 2) * 64 + 64
    rw [e5]; omega

/-- The bands tile the second result likewise. -/
theorem cover_right (i : S10000x64.Idx) : ∃ t : Fin cfg3.N, (cfg3.win 3).flush t = true ∧ i ∈ ((cfg3.win 3).blk t).view.set := by
  have hi0 : (i 0).val < 10000 := (i 0).isLt
  have hi1 : (i 1).val < 64 := (i 1).isLt
  have hN : grid3.N = 50 := N_3
  have ht : (i 0).val / 200 < cfg3.N := by show (i 0).val / 200 < grid3.N; rw [hN]; omega
  obtain ⟨-, -, -, -, -, -, e6, e7⟩ := idx_facts ⟨(i 0).val / 200, ht⟩
  refine ⟨⟨(i 0).val / 200, ht⟩, flush3_3 _, ?_⟩
  rw [mem_blk_right]
  intro a
  match a with
  | ⟨0, _⟩ =>
    show win3_3.index ⟨(i 0).val / 200, ht⟩ (0 : Fin 2) * 200 ≤ (i 0).val ∧ (i 0).val < win3_3.index ⟨(i 0).val / 200, ht⟩ (0 : Fin 2) * 200 + 200
    rw [e6]; show (i 0).val / 200 * 200 ≤ (i 0).val ∧ (i 0).val < (i 0).val / 200 * 200 + 200; omega
  | ⟨1, _⟩ =>
    show win3_3.index ⟨(i 0).val / 200, ht⟩ (1 : Fin 2) * 64 ≤ (i 1).val ∧ (i 1).val < win3_3.index ⟨(i 0).val / 200, ht⟩ (1 : Fin 2) * 64 + 64
    rw [e7]; omega

/-- After the launch the first result is the left 64 columns of `A · B`, of the arrays as the launch found them. -/
theorem final_left (c : Dev nD) :
    (dat3 V c).arrAt 2 cfg3.N = leftCols (mm (V c main_arg1) (V c main_call0_v3)) :=
  (dat3 V c).arrAt_eq_of_cover 2 (leftCols (mm (V c main_arg1) (V c main_call0_v3))) (fun t _ => flushed_left V c t) cover_left

/-- After the launch the second result is the right 64 columns of `A · B`. -/
theorem final_right (c : Dev nD) :
    (dat3 V c).arrAt 3 cfg3.N = rightCols (mm (V c main_arg1) (V c main_call0_v3)) :=
  (dat3 V c).arrAt_eq_of_cover 3 (rightCols (mm (V c main_arg1) (V c main_call0_v3))) (fun t _ => flushed_right V c t) cover_right

end Cert.KernelIdeal.Proj

end
-- ==== Proof.KernelValue.lean ====
/-
  The kernel program's two results as functions of its five arguments, over the extended reals.

  Write x for the features, A for the adjacency matrix, W₁ for the first weights and U, W for the two 128 × 64 second-layer
  weight matrices in the order the program sets them side by side, [U | W]. Reading the program in order:

    S = x · W₁,   H = max (A · S, 0),   B = H · [U | W],   L = A · B,

  the first result array of the last launch is the left 64 columns of L and the second its right 64 columns; the ten host
  lines after it take the mean of the right half, and the logarithm of the mean of the exponential of the left half.
  Each launch's array is read off the launch's own write-backs (one module per launch), at the contents the launch was
  entered with; this module walks those contents back to the launch memory: an array no launch or host line has written
  yet still holds what the program was started with.
-/
import proofs.«115785_g16561393893850_cont_week2b_459_17_alg».proof.Proof.KernelRun
import proofs.«115785_g16561393893850_cont_week2b_459_17_alg».proof.Proof.Region0
import proofs.«115785_g16561393893850_cont_week2b_459_17_alg».proof.Proof.Region1
import proofs.«115785_g16561393893850_cont_week2b_459_17_alg».proof.Proof.Region2
import proofs.«115785_g16561393893850_cont_week2b_459_17_alg».proof.Proof.Region3
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Cert.LibMatProd
open Idealize.ShloMosaic.Pipeline (Dat)
open Cert.KernelIdeal.Hidden (hid)
open Cert.KernelIdeal.Proj (leftCols rightCols)

variable (m : (ℓ : Loc nD τ sig) → Buf (Elt Ideal) ℓ) (ρ : Dev nD → PrngReg)

/-- The mean over all 640000 entries, as the host lines spell it: the sum from zero, divided by the constant 640000. -/
def meanAll (X : FVec Ideal S10000x64 .f32) : FVec Ideal S_ .f32 :=
  Host.divf (F := Ideal) (Host.reduceAdd (F := Ideal) X (constant (F := Ideal) S_ .f32 0x00000000#32) reducesTo_S10000x64_S_d0_1 h_S_)
    (constant (F := Ideal) S_ .f32 0x491C4000#32)

/-- The logarithm of the mean of the exponentials. -/
def logMeanExp (X : FVec Ideal S10000x64 .f32) : FVec Ideal S_ .f32 :=
  Host.log (F := Ideal) (meanAll (Host.exp (F := Ideal) X))

/-- The two second-layer weight matrices side by side. -/
abbrev sideBySide (U W : FVec Ideal S128x64 .f32) : FVec Ideal S128x128 .f32 :=
  concatenate S128x128 1 [⟨S128x64, U⟩, ⟨S128x64, W⟩] concatenates_S128x64_S128x64_S128x128_d1

/-- `L = A · (max (A · (x · W₁), 0) · [U | W])`. -/
def logits (x : FVec Ideal S10000x128 .f32) (A : FVec Ideal S10000x10000 .f32) (W₁ : FVec Ideal S128x128 .f32)
    (U W : FVec Ideal S128x64 .f32) : FVec Ideal S10000x128 .f32 :=
  mm A (mm (hid A (mm x W₁)) (sideBySide U W))

/-! ## The contents each launch is entered with -/

/-- After the first launch the support array holds `x · W₁`. -/
theorem support_eq (c : Dev nD) :
    V1 m ρ c main_call0_v0 = mm (m ((c : Thread nD τ).loc main_arg0)) (m ((c : Thread nD τ).loc main_arg2)) :=
  (W1_arr m ρ c 2).trans (Cert.KernelIdeal.Support.final (V0 m ρ) c)

/-- The second launch finds the adjacency matrix as launched. -/
theorem adj_at1 (c : Dev nD) : V1 m ρ c main_arg1 = m ((c : Thread nD τ).loc main_arg1) :=
  W1_of_ne m ρ c main_arg1 (by decide)

/-- After the second launch the hidden array holds `max (A · S, 0)`. -/
theorem hidden_at2 (c : Dev nD) :
    W2 m ρ c (Proc.devRef .tc main_call0_v1)
      = hid (m ((c : Thread nD τ).loc main_arg1)) (mm (m ((c : Thread nD τ).loc main_arg0)) (m ((c : Thread nD τ).loc main_arg2))) := by
  refine (W2_arr m ρ c 2).trans ((Cert.KernelIdeal.Hidden.final (V1 m ρ) c).trans ?_)
  rw [adj_at1 m ρ c, support_eq m ρ c]

/-- The host line between the launches does not write the hidden array. -/
theorem hidden_eq (c : Dev nD) :
    V3 m ρ c main_call0_v1
      = hid (m ((c : Thread nD τ).loc main_arg1)) (mm (m ((c : Thread nD τ).loc main_arg0)) (m ((c : Thread nD τ).loc main_arg2))) :=
  (show W3 m ρ c (Proc.devRef .tc main_call0_v1) = W2 m ρ c (Proc.devRef .tc main_call0_v1) from
    StableHlo.after_of_forall_not_mem (b := Proc.devRef .tc main_call0_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (hidden_at2 m ρ c)

/-- The two weight arguments are as launched when the host line reads them. -/
theorem w3_at2 (c : Dev nD) : W2 m ρ c (Proc.devRef .tc main_arg3) = m ((c : Thread nD τ).loc main_arg3) :=
  (W2_of_ne m ρ c main_arg3 (by decide)).trans (W1_of_ne m ρ c main_arg3 (by decide))
theorem w4_at2 (c : Dev nD) : W2 m ρ c (Proc.devRef .tc main_arg4) = m ((c : Thread nD τ).loc main_arg4) :=
  (W2_of_ne m ρ c main_arg4 (by decide)).trans (W1_of_ne m ρ c main_arg4 (by decide))

/-- The host line sets the fifth argument's matrix and the fourth's side by side, in that order. -/
theorem weights_eq (c : Dev nD) :
    V3 m ρ c main_call0_v2 = sideBySide (m ((c : Thread nD τ).loc main_arg4)) (m ((c : Thread nD τ).loc main_arg3)) := by
  have e : W3 m ρ c (Proc.devRef .tc main_call0_v2)
      = sideBySide (W2 m ρ c (Proc.devRef .tc main_arg4)) (W2 m ρ c (Proc.devRef .tc main_arg3)) := by
    show StableHlo.after hostOps2 (W2 m ρ c) (Proc.devRef .tc main_call0_v2) = _
    after_results
    rfl
  refine e.trans ?_
  rw [w3_at2 m ρ c, w4_at2 m ρ c]

/-- After the third launch its result holds `H · [U | W]`. -/
theorem mixed_eq (c : Dev nD) :
    V4 m ρ c main_call0_v3
      = mm (hid (m ((c : Thread nD τ).loc main_arg1)) (mm (m ((c : Thread nD τ).loc main_arg0)) (m ((c : Thread nD τ).loc main_arg2))))
          (sideBySide (m ((c : Thread nD τ).loc main_arg4)) (m ((c : Thread nD τ).loc main_arg3))) := by
  refine (W4_arr m ρ c 2).trans ((Cert.KernelIdeal.Mixed.final (V3 m ρ) c).trans ?_)
  rw [hidden_eq m ρ c, weights_eq m ρ c]

/-- The fourth launch finds the adjacency matrix as launched: the second launch only read it, and nothing else touches it. -/
theorem adj_at4 (c : Dev nD) : V4 m ρ c main_arg1 = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat1 (V1 m ρ) c).arrAt_in 1 rfl _).trans (A_eq1 (V1 m ρ) c 1))
    _ = W0 m ρ c (Proc.devRef .tc main_arg1) := W1_of_ne m ρ c main_arg1 (by decide)
    _ = m ((c : Thread nD τ).loc main_arg1) := rfl

/-- After the fourth launch its first result holds the left half of `L`, its second the right half. -/
theorem left_eq (c : Dev nD) :
    W5 m ρ c (Proc.devRef .tc main_call0_v4_0)
      = leftCols (logits (m ((c : Thread nD τ).loc main_arg0)) (m ((c : Thread nD τ).loc main_arg1)) (m ((c : Thread nD τ).loc main_arg2))
          (m ((c : Thread nD τ).loc main_arg4)) (m ((c : Thread nD τ).loc main_arg3))) := by
  refine (W5_arr m ρ c 2).trans ((Cert.KernelIdeal.Proj.final_left (V4 m ρ) c).trans ?_)
  rw [adj_at4 m ρ c, mixed_eq m ρ c]
  rfl
theorem right_eq (c : Dev nD) :
    W5 m ρ c (Proc.devRef .tc main_call0_v4_1)
      = rightCols (logits (m ((c : Thread nD τ).loc main_arg0)) (m ((c : Thread nD τ).loc main_arg1)) (m ((c : Thread nD τ).loc main_arg2))
          (m ((c : Thread nD τ).loc main_arg4)) (m ((c : Thread nD τ).loc main_arg3))) := by
  refine (W5_arr m ρ c 3).trans ((Cert.KernelIdeal.Proj.final_right (V4 m ρ) c).trans ?_)
  rw [adj_at4 m ρ c, mixed_eq m ρ c]
  rfl

/-! ## The two results -/

/-- The first result: the mean of the right half of `L`. -/
theorem result_mean (c : Dev nD) :
    W6 m ρ c (Proc.devRef .tc main_v0_0)
      = meanAll (rightCols (logits (m ((c : Thread nD τ).loc main_arg0)) (m ((c : Thread nD τ).loc main_arg1)) (m ((c : Thread nD τ).loc main_arg2))
          (m ((c : Thread nD τ).loc main_arg4)) (m ((c : Thread nD τ).loc main_arg3)))) := by
  have e : W6 m ρ c (Proc.devRef .tc main_v0_0) = meanAll (W5 m ρ c (Proc.devRef .tc main_call0_v4_1)) := by
    show StableHlo.after hostOps4 (W5 m ρ c) (Proc.devRef .tc main_v0_0) = _
    after_results
    rfl
  rw [e, right_eq m ρ c]

/-- The second result: the logarithm of the mean of the exponential of the left half of `L`. -/
theorem result_logMeanExp (c : Dev nD) :
    W6 m ρ c (Proc.devRef .tc main_v0_1)
      = logMeanExp (leftCols (logits (m ((c : Thread nD τ).loc main_arg0)) (m ((c : Thread nD τ).loc main_arg1)) (m ((c : Thread nD τ).loc main_arg2))
          (m ((c : Thread nD τ).loc main_arg4)) (m ((c : Thread nD τ).loc main_arg3)))) := by
  have e : W6 m ρ c (Proc.devRef .tc main_v0_1) = logMeanExp (W5 m ρ c (Proc.devRef .tc main_call0_v4_0)) := by
    show StableHlo.after hostOps4 (W5 m ρ c) (Proc.devRef .tc main_v0_1) = _
    after_results
    rfl
  rw [e, left_eq m ρ c]

/-- The run, read: both results as functions of the arguments, the arguments unchanged. -/
theorem run : θ_run defs (onTc (τ := τ) (main (F := Ideal))) ⟨m, fun _ => 0, ρ⟩ (fun r => ∀ c : Dev nD,
      r.2.mem ((c.tc : Thread nD τ).loc main_v0_0)
        = meanAll (rightCols (logits (m ((c : Thread nD τ).loc main_arg0)) (m ((c : Thread nD τ).loc main_arg1)) (m ((c : Thread nD τ).loc main_arg2))
            (m ((c : Thread nD τ).loc main_arg4)) (m ((c : Thread nD τ).loc main_arg3))))
      ∧ r.2.mem ((c.tc : Thread nD τ).loc main_v0_1)
        = logMeanExp (leftCols (logits (m ((c : Thread nD τ).loc main_arg0)) (m ((c : Thread nD τ).loc main_arg1)) (m ((c : Thread nD τ).loc main_arg2))
            (m ((c : Thread nD τ).loc main_arg4)) (m ((c : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_mean m ρ c), (h c).2.1.trans (result_logMeanExp m ρ c), (h c).2.2⟩)
    (Cert.KernelIdeal.Run.run_results (F := Ideal) m ρ)

end Cert.KernelIdeal.Chain

end
-- ==== Proof.Bridge.lean ====
/-
  The reference's two results are the kernel program's two functions of the arguments.

  The reference forms  S = x · W₁,  H = max (A · S, 0),  and then the two 64-column projections separately,
  A · (H · W) and A · (H · U); the kernel program forms  A · (H · [U | W])  once and splits its columns. Column q of
  H · [U | W] is column q of H · U for q < 64 and column q − 64 of H · W otherwise, and multiplying by A on the left does
  not mix columns, so the left half of A · (H · [U | W]) is A · (H · U) and its right half is A · (H · W), entry by entry.
  Only the order of these column reads differs: no sum is regrouped, so no entry needs to be finite. Both programs then
  apply the same host lines (sum from zero, divide by 640000; exponential before and logarithm after for the second
  result) to equal arrays.
-/
import proofs.«115785_g16561393893850_cont_week2b_459_17_alg».proof.Proof.KernelValue
import proofs.«115785_g16561393893850_cont_week2b_459_17_alg».proof.Proof.Gen.ReferenceIdeal.Run
import proofs.«115785_g16561393893850_cont_week2b_459_17_alg».proof.Proof.LibMatProd

set_option maxRecDepth 16384

noncomputable section

namespace Cert.RefBridge

open Idealize.ShloMosaic Idealize.ShloMosaic.ValueIdx Cert.LibMatProd
open Cert.KernelIdeal.Hidden (hid)
open Cert.KernelIdeal.Proj (leftCols rightCols)
open Cert.KernelIdeal.Chain (meanAll logMeanExp sideBySide logits)

/-- The reference's hidden layer: the host's maximum against the zero scalar spread over the shape is `max (·, 0)`. -/
theorem relu_eq (A : FVec Ideal Cert.ReferenceIdeal.S10000x10000 .f32) (S : FVec Ideal Cert.ReferenceIdeal.S10000x128 .f32) :
    maximumf (mm A S) (broadcastInDim Cert.ReferenceIdeal.S10000x128 ![] Cert.ReferenceIdeal.Facts₀.bcast_S_S10000x128
        (constant (F := Ideal) Cert.ReferenceIdeal.S_ .f32 0x00000000#32)) = hid A S :=
  funext fun _ => rfl

/-- The right half of `A · (H · [U | W])` is `A · (H · W)`. -/
theorem right_half (A : FVec Ideal Cert.KernelIdeal.S10000x10000 .f32) (H : FVec Ideal Cert.KernelIdeal.S10000x128 .f32)
    (U W : FVec Ideal Cert.KernelIdeal.S128x64 .f32) :
    mm A (mm H W) = rightCols (mm A (mm H (sideBySide U W))) := by
  funext i
  obtain ⟨p, q, rfl⟩ : ∃ (p : Fin 10000) (q : Fin 64), i = ix2 p q := ⟨i 0, i 1, eq_ix2 i⟩
  exact (mm_mm_col_congr A H W (sideBySide U W) p q ⟨64 + q.val, by omega⟩ fun c =>
    Cert.LibConcatCols.concat_cols_right U W _ c ⟨64 + q.val, by omega⟩ q rfl).symm

/-- The left half of `A · (H · [U | W])` is `A · (H · U)`. -/
theorem left_half (A : FVec Ideal Cert.KernelIdeal.S10000x10000 .f32) (H : FVec Ideal Cert.KernelIdeal.S10000x128 .f32)
    (U W : FVec Ideal Cert.KernelIdeal.S128x64 .f32) :
    mm A (mm H U) = leftCols (mm A (mm H (sideBySide U W))) := by
  funext i
  obtain ⟨p, q, rfl⟩ : ∃ (p : Fin 10000) (q : Fin 64), i = ix2 p q := ⟨i 0, i 1, eq_ix2 i⟩
  exact (mm_mm_col_congr A H U (sideBySide U W) p q ⟨q.val, by omega⟩ fun c =>
    Cert.LibConcatCols.concat_cols_left U W _ c ⟨q.val, by omega⟩ q rfl).symm

section
open Cert.ReferenceIdeal

variable (x : FVec Ideal S10000x128 .f32) (A : FVec Ideal S10000x10000 .f32) (W₁ : FVec Ideal S128x128 .f32)
  (W U : FVec Ideal S128x64 .f32)

/-- The reference's projection through a 64-column weight matrix `P`, as the reference spells it, is `A · (H · P)`. -/
theorem proj_eq (P : FVec Ideal S128x64 .f32) :
    Host.dotGeneral (F := Ideal) dot_S10000x10000_S10000x64_S10000x64_1_0_0_1_n_n none A
      (Host.dotGeneral (F := Ideal) dot_S10000x128_S128x64_S10000x64_1_0_0_1_n_n none
        (maximumf (Host.dotGeneral (F := Ideal) dot_S10000x10000_S10000x128_S10000x128_1_0_0_1_n_n none A
            (Host.dotGeneral (F := Ideal) dot_S10000x128_S128x128_S10000x128_1_0_0_1_n_n none x W₁))
          (broadcastInDim S10000x128 ![] Facts₀.bcast_S_S10000x128 (constant (F := Ideal) S_ .f32 0x00000000#32))) P)
      = mm A (mm (hid A (mm x W₁)) P) := by
  have e1 : Host.dotGeneral (F := Ideal) dot_S10000x128_S128x128_S10000x128_1_0_0_1_n_n none x W₁ = mm x W₁ :=
    dotGeneral_eq_mm _ none x W₁
  have e2 : Host.dotGeneral (F := Ideal) dot_S10000x10000_S10000x128_S10000x128_1_0_0_1_n_n none A (mm x W₁) = mm A (mm x W₁) :=
    dotGeneral_eq_mm _ none A (mm x W₁)
  have e3 : Host.dotGeneral (F := Ideal) dot_S10000x128_S128x64_S10000x64_1_0_0_1_n_n none (hid A (mm x W₁)) P = mm (hid A (mm x W₁)) P :=
    dotGeneral_eq_mm _ none (hid A (mm x W₁)) P
  have e4 : Host.dotGeneral (F := Ideal) dot_S10000x10000_S10000x64_S10000x64_1_0_0_1_n_n none A (mm (hid A (mm x W₁)) P)
      = mm A (mm (hid A (mm x W₁)) P) :=
    dotGeneral_eq_mm _ none A (mm (hid A (mm x W₁)) P)
  rw [e1, e2, relu_eq A (mm x W₁), e3, e4]

/-- The reference's first result is the mean of the right half of `L`. -/
theorem ref_mean :
    Host.divf (F := Ideal) (Host.reduceAdd (F := Ideal)
      (Host.dotGeneral (F := Ideal) dot_S10000x10000_S10000x64_S10000x64_1_0_0_1_n_n none A
        (Host.dotGeneral (F := Ideal) dot_S10000x128_S128x64_S10000x64_1_0_0_1_n_n none
          (maximumf (Host.dotGeneral (F := Ideal) dot_S10000x10000_S10000x128_S10000x128_1_0_0_1_n_n none A
              (Host.dotGeneral (F := Ideal) dot_S10000x128_S128x128_S10000x128_1_0_0_1_n_n none x W₁))
            (broadcastInDim S10000x128 ![] Facts₀.bcast_S_S10000x128 (constant (F := Ideal) S_ .f32 0x00000000#32))) W))
      (constant (F := Ideal) S_ .f32 0x00000000#32) Facts₀.reducesTo_S10000x64_S_d0_1 Facts₀.h_S_)
      (constant (F := Ideal) S_ .f32 0x491C4000#32)
      = meanAll (rightCols (logits x A W₁ U W)) := by
  rw [proj_eq x A W₁ W, right_half A (hid A (mm x W₁)) U W]
  rfl

/-- The reference's second result is the logarithm of the mean of the exponential of the left half of `L`. -/
theorem ref_logMeanExp :
    Host.log (F := Ideal) (Host.divf (F := Ideal) (Host.reduceAdd (F := Ideal) (Host.exp (F := Ideal)
      (Host.dotGeneral (F := Ideal) dot_S10000x10000_S10000x64_S10000x64_1_0_0_1_n_n none A
        (Host.dotGeneral (F := Ideal) dot_S10000x128_S128x64_S10000x64_1_0_0_1_n_n none
          (maximumf (Host.dotGeneral (F := Ideal) dot_S10000x10000_S10000x128_S10000x128_1_0_0_1_n_n none A
              (Host.dotGeneral (F := Ideal) dot_S10000x128_S128x128_S10000x128_1_0_0_1_n_n none x W₁))
            (broadcastInDim S10000x128 ![] Facts₀.bcast_S_S10000x128 (constant (F := Ideal) S_ .f32 0x00000000#32))) U)))
      (constant (F := Ideal) S_ .f32 0x00000000#32) Facts₀.reducesTo_S10000x64_S_d0_1 Facts₀.h_S_)
      (constant (F := Ideal) S_ .f32 0x491C4000#32))
      = logMeanExp (leftCols (logits x A W₁ U W)) := by
  rw [proj_eq x A W₁ U, left_half A (hid A (mm x W₁)) U W]
  rfl

end

end Cert.RefBridge

end
-- ==== Proof.lean ====
/-
  The claims. The kernel program computes a two-layer graph-convolution encoder in four kernel launches,

    S = x · W₁,   H = max (A · S, 0),   B = H · [U | W],   L = A · B,

  and returns the mean of the right 64 columns of L and the logarithm of the mean of the exponential of its left 64
  columns; the reference computes A · (H · W) and A · (H · U) separately and takes the same mean and log-mean-exp. Over
  the extended reals the two agree entry by entry before the means (the column split of a product against two matrices
  side by side), so the results agree; nothing in the argument moves a factor across a sum, and the finiteness of the
  inputs is not used. The ideal pass rewrote nothing, so the idealized kernel program is the program's own text and its
  sanction is trivial. The three frames are the programs' runs with the results dropped.
-/
import proofs.«115785_g16561393893850_cont_week2b_459_17_alg».proof.Defs
import proofs.«115785_g16561393893850_cont_week2b_459_17_alg».proof.Proof.Gen.Kernel
import proofs.«115785_g16561393893850_cont_week2b_459_17_alg».proof.Proof.Gen.Kernel.Frame
import proofs.«115785_g16561393893850_cont_week2b_459_17_alg».proof.Proof.Gen.KernelIdeal
import proofs.«115785_g16561393893850_cont_week2b_459_17_alg».proof.Proof.Gen.KernelIdeal.Frame
import proofs.«115785_g16561393893850_cont_week2b_459_17_alg».proof.Proof.Gen.ReferenceIdeal
import proofs.«115785_g16561393893850_cont_week2b_459_17_alg».proof.Proof.Gen.ReferenceIdeal.Run
import proofs.«115785_g16561393893850_cont_week2b_459_17_alg».proof.Proof.Gen.Pre_finite_inputs
import proofs.«115785_g16561393893850_cont_week2b_459_17_alg».proof.Proof.KernelValue
import proofs.«115785_g16561393893850_cont_week2b_459_17_alg».proof.Proof.Bridge

noncomputable section

namespace Cert.Proof

open Idealize.ShloMosaic Idealize.ShloMosaic.TcCoe Idealize.SL.Sem
open Cert.KernelIdeal.Hidden (hid)
open Cert.KernelIdeal.Proj (leftCols rightCols)
open Cert.KernelIdeal.Chain (meanAll logMeanExp logits)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end, from memories agreeing on the arguments, with the mean of the right half of `L` and the
    log-mean-exp of its left half. -/
theorem algebraic : Cert.algebraic_KernelIdeal_ReferenceIdeal := by
  intro m ρ m' ρ' _ hagree
  refine ⟨fun c => meanAll (rightCols (logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3)))),
    fun c => logMeanExp (leftCols (logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3)))),
    Cert.KernelIdeal.Chain.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1]
    exact Cert.RefBridge.ref_mean _ _ _ _ _
  · rw [(hagree c).1, (hagree c).2.1, (hagree c).2.2.1, (hagree c).2.2.2.2]
    exact Cert.RefBridge.ref_logMeanExp _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
